-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S1024x3072 : Shape := ⟨2, ![1024, 3072]⟩
abbrev S3072 : Shape := ⟨1, ![3072]⟩
abbrev S1024 : Shape := ⟨1, ![1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S3072 : S_.BroadcastsInDim S3072 (![] : Fin 0 → Fin S3072.rank)
  reducesTo_S3072_S_d0 : S3072.ReducesTo [0] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S3072 .f32) (main_arg8 : FVec F S1024 .f32) (main_arg9 : FVec F S1024 .f32) (main_arg10 : FVec F S1024 .f32) (main_v33 : IVec S_ 1) : IVec S_ 1 :=
  let main_v34 : FVec F S3072 .f32 := Host.absf main_arg7
  let main_cst_12 : FVec F S_ .f32 := constant S_ .f32 0x7F800000#32
  let main_v35 : FVec F S3072 .f32 := broadcastInDim S3072 ![] bcast_S_S3072 main_cst_12
  let main_v36 : IVec S3072 1 := cmpf .olt main_v34 main_v35
  let main_c_13 : IVec S_ 1 := constantI S_ 1 1#1
  let main_v37 : IVec S_ 1 := (fun x v => Host.reduce IntOp.andi x v reducesTo_S3072_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024x3072 .f32) (main_arg5 : FVec F S1024x3072 .f32) (main_arg6 : FVec F S3072 .f32) (main_arg7 : FVec F S3072 .f32) (main_arg8 : FVec F S1024 .f32) (main_arg9 : FVec F S1024 .f32) (main_arg10 : FVec F S1024 .f32) (main_v13 : IVec S_ 1) (main_v16 : IVec S1024x3072 1) : IVec S_ 1 :=
  let main_c_5 : IVec S_ 1 := constantI S_ 1 1#1
  let main_v17 : IVec S_ 1 := (fun x v => Host.reduce IntOp.andi x v reducesTo_S1024x3072_S_d0_1 h_S_) main_v16 main_c_5
  let main_v18 : IVec S_ 1 := andi main_v13 main_v17
  let main_v19 : FVec F S1024x3072 .f32 := Host.absf main_arg4
  let main_cst_6 : FVec F S_ .f32 := constant S_ .f32 0x7F800000#32
  let main_v20 : FVec F S1024x3072 .f32 := broadcastInDim S1024x3072 ![] bcast_S_S1024x3072 main_cst_6
  let main_v21 : IVec S1024x3072 1 := cmpf .olt main_v19 main_v20
  let main_c_7 : IVec S_ 1 := constantI S_ 1 1#1
  let main_v22 : IVec S_ 1 := (fun x v => Host.reduce IntOp.andi x v reducesTo_S1024x3072_S_d0_1 h_S_) main_v21 main_c_7
  let main_v23 : IVec S_ 1 := andi main_v18 main_v22
  let main_v24 : FVec F S1024x3072 .f32 := Host.absf main_arg5
  let main_cst_8 : FVec F S_ .f32 := constant S_ .f32 0x7F800000#32
  let main_v25 : FVec F S1024x3072 .f32 := broadcastInDim S1024x3072 ![] bcast_S_S1024x3072 main_cst_8
  let main_v26 : IVec S1024x3072 1 := cmpf .olt main_v24 main_v25
  let main_c_9 : IVec S_ 1 := constantI S_ 1 1#1
  let main_v27 : IVec S_ 1 := (fun x v => Host.reduce IntOp.andi x v reducesTo_S1024x3072_S_d0_1 h_S_) main_v26 main_c_9
  let main_v28 : IVec S_ 1 := andi main_v23 main_v27
  let main_v29 : FVec F S3072 .f32 := Host.absf main_arg6
  let main_cst_10 : FVec F S_ .f32 := constant S_ .f32 0x7F800000#32
  let main_v30 : FVec F S3072 .f32 := broadcastInDim S3072 ![] bcast_S_S3072 main_cst_10
  let main_v31 : IVec S3072 1 := cmpf .olt main_v29 main_v30
  let main_c_11 : IVec S_ 1 := constantI S_ 1 1#1
  let main_v32 : IVec S_ 1 := (fun x v => Host.reduce IntOp.andi x v reducesTo_S3072_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S2048x1024 .f32) (main_arg1 : FVec F S2048x1024 .f32) (main_arg2 : FVec F S1024x3072 .f32) (main_arg3 : FVec F S1024x3072 .f32) (main_arg4 : FVec F S1024x3072 .f32) (main_arg5 : FVec F S1024x3072 .f32) (main_arg6 : FVec F S3072 .f32) (main_arg7 : FVec F S3072 .f32) (main_arg8 : FVec F S1024 .f32) (main_arg9 : FVec F S1024 .f32) (main_arg10 : FVec F S1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S1024x3072 .f32 := Host.absf main_arg2
  let main_cst_2 : FVec F S_ .f32 := constant S_ .f32 0x7F800000#32
  let main_v10 : FVec F S1024x3072 .f32 := broadcastInDim S1024x3072 ![] bcast_S_S1024x3072 main_cst_2
  let main_v11 : IVec S1024x3072 1 := cmpf .olt main_v9 main_v10
  let main_c_3 : IVec S_ 1 := constantI S_ 1 1#1
  let main_v12 : IVec S_ 1 := (fun x v => Host.reduce IntOp.andi x v reducesTo_S1024x3072_S_d0_1 h_S_) main_v11 main_c_3
  let main_v13 : IVec S_ 1 := andi main_v8 main_v12
  let main_v14 : FVec F S1024x3072 .f32 := Host.absf main_arg3
  let main_cst_4 : FVec F S_ .f32 := constant S_ .f32 0x7F800000#32
  let main_v15 : FVec F S1024x3072 .f32 := broadcastInDim S1024x3072 ![] bcast_S_S1024x3072 main_cst_4
  let main_v16 : IVec S1024x3072 1 := cmpf .olt main_v14 main_v15
  fn_part1 (F := F) main_arg4 main_arg5 main_arg6 main_arg7 main_arg8 main_arg9 main_arg10 main_v13 main_v16
-- ==== Kernel.lean ====
abbrev S2048x1024 : Shape := ⟨2, ![2048, 1024]⟩
abbrev S1024x3072 : Shape := ⟨2, ![1024, 3072]⟩
abbrev S3072 : Shape := ⟨1, ![3072]⟩
abbrev S1024 : Shape := ⟨1, ![1024]⟩
abbrev S1024x2048 : Shape := ⟨2, ![1024, 2048]⟩
abbrev S2048 : Shape := ⟨1, ![2048]⟩
abbrev S_ : Shape := ⟨0, ![]⟩
abbrev S2048x2048 : Shape := ⟨2, ![2048, 2048]⟩
abbrev S1x2048 : Shape := ⟨2, ![1, 2048]⟩
abbrev S1x1024 : Shape := ⟨2, ![1, 1024]⟩
abbrev S256x1024 : Shape := ⟨2, ![256, 1024]⟩
abbrev S256x2048 : Shape := ⟨2, ![256, 2048]⟩

abbrev nBuf : Space → Nat
  | .hbm => 70
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x3072, .f32⟩
  | .hbm, ⟨3, _⟩ => ⟨S1024x3072, .f32⟩
  | .hbm, ⟨4, _⟩ => ⟨S1024x3072, .f32⟩
  | .hbm, ⟨5, _⟩ => ⟨S1024x3072, .f32⟩
  | .hbm, ⟨6, _⟩ => ⟨S3072, .f32⟩
  | .hbm, ⟨7, _⟩ => ⟨S3072, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024x2048, .f32⟩
  | .hbm, ⟨12, _⟩ => ⟨S1024x2048, .f32⟩
  | .hbm, ⟨13, _⟩ => ⟨S1024x2048, .f32⟩
  | .hbm, ⟨14, _⟩ => ⟨S1024x2048, .f32⟩
  | .hbm, ⟨15, _⟩ => ⟨S2048, .f32⟩
  | .hbm, ⟨16, _⟩ => ⟨S2048, .f32⟩
  | .hbm, ⟨17, _⟩ => ⟨S_, .f32⟩
  | .hbm, ⟨18, _⟩ => ⟨S1024x2048, .f32⟩
  | .hbm, ⟨19, _⟩ => ⟨S1024x2048, .f32⟩
  | .hbm, ⟨20, _⟩ => ⟨S1024x2048, .f32⟩
  | .hbm, ⟨21, _⟩ => ⟨S1024x2048, .f32⟩
  | .hbm, ⟨22, _⟩ => ⟨S1024x2048, .i1⟩
  | .hbm, ⟨23, _⟩ => ⟨S1024x2048, .f32⟩
  | .hbm, ⟨24, _⟩ => ⟨S1024x2048, .f32⟩
  | .hbm, ⟨25, _⟩ => ⟨S1024x2048, .f32⟩
  | .hbm, ⟨26, _⟩ => ⟨S1024x2048, .f32⟩
  | .hbm, ⟨27, _⟩ => ⟨S1024x2048, .f32⟩
  | .hbm, ⟨28, _⟩ => ⟨S1024x2048, .f32⟩
  | .hbm, ⟨29, _⟩ => ⟨S1024x2048, .f32⟩
  | .hbm, ⟨30, _⟩ => ⟨S1024x2048, .f32⟩
  | .hbm, ⟨31, _⟩ => ⟨S1024x2048, .f32⟩
  | .hbm, ⟨32, _⟩ => ⟨S_, .f32⟩
  | .hbm, ⟨33, _⟩ => ⟨S1024x2048, .f32⟩
  | .hbm, ⟨34, _⟩ => ⟨S1024x2048, .f32⟩
  | .hbm, ⟨35, _⟩ => ⟨S1024x2048, .f32⟩
  | .hbm, ⟨36, _⟩ => ⟨S1024x2048, .f32⟩
  | .hbm, ⟨37, _⟩ => ⟨S1024x2048, .i1⟩
  | .hbm, ⟨38, _⟩ => ⟨S1024x2048, .f32⟩
  | .hbm, ⟨39, _⟩ => ⟨S1024x2048, .f32⟩
  | .hbm, ⟨40, _⟩ => ⟨S1024x2048, .f32⟩
  | .hbm, ⟨41, _⟩ => ⟨S1024x2048, .f32⟩
  | .hbm, ⟨42, _⟩ => ⟨S1024x2048, .f32⟩
  | .hbm, ⟨43, _⟩ => ⟨S1024x2048, .f32⟩
  | .hbm, ⟨44, _⟩ => ⟨S1024x2048, .f32⟩
  | .hbm, ⟨45, _⟩ => ⟨S1024x2048, .f32⟩
  | .hbm, ⟨46, _⟩ => ⟨S1024x2048, .f32⟩
  | .hbm, ⟨47, _⟩ => ⟨S2048x2048, .f32⟩
  | .hbm, ⟨48, _⟩ => ⟨S2048x2048, .bf16⟩
  | .hbm, ⟨49, _⟩ => ⟨S2048x2048, .f32⟩
  | .hbm, ⟨50, _⟩ => ⟨S2048x2048, .bf16⟩
  | .hbm, ⟨51, _⟩ => ⟨S_, .f32⟩
  | .hbm, ⟨52, _⟩ => ⟨S2048, .f32⟩
  | .hbm, ⟨53, _⟩ => ⟨S2048, .f32⟩
  | .hbm, ⟨54, _⟩ => ⟨S2048, .f32⟩
  | .hbm, ⟨55, _⟩ => ⟨S2048, .f32⟩
  | .hbm, ⟨56, _⟩ => ⟨S2048, .i1⟩
  | .hbm, ⟨57, _⟩ => ⟨S2048, .f32⟩
  | .hbm, ⟨58, _⟩ => ⟨S2048, .f32⟩
  | .hbm, ⟨59, _⟩ => ⟨S2048, .f32⟩
  | .hbm, ⟨60, _⟩ => ⟨S2048, .f32⟩
  | .hbm, ⟨61, _⟩ => ⟨S2048, .f32⟩
  | .hbm, ⟨62, _⟩ => ⟨S2048, .f32⟩
  | .hbm, ⟨63, _⟩ => ⟨S2048, .f32⟩
  | .hbm, ⟨64, _⟩ => ⟨S2048, .f32⟩
  | .hbm, ⟨65, _⟩ => ⟨S1x2048, .f32⟩
  | .hbm, ⟨66, _⟩ => ⟨S1x2048, .f32⟩
  | .hbm, ⟨67, _⟩ => ⟨S1x1024, .f32⟩
  | .hbm, ⟨68, _⟩ => ⟨S1x1024, .f32⟩
  | .hbm, ⟨69, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S2048x2048, .bf16⟩
  | .local _ .vmem, ⟨5, _⟩ => ⟨S2048x2048, .bf16⟩
  | .local _ .vmem, ⟨6, _⟩ => ⟨S1x2048, .f32⟩
  | .local _ .vmem, ⟨7, _⟩ => ⟨S1x2048, .f32⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_v6 : Ref sig .tc := ⟨.hbm, 30, rfl⟩
abbrev main_v7 : Ref sig .tc := ⟨.hbm, 31, rfl⟩
abbrev main_call1_cst : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_call2_cst : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_v6 : Ref sig .tc := ⟨.hbm, 58, rfl⟩
abbrev main_call2_v7 : Ref sig .tc := ⟨.hbm, 59, rfl⟩
abbrev main_call2_v8 : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S1024x3072_S1024x2048_0_1024 : S1024x3072.Slices ![0, 1024] S1024x2048
  slices_S3072_S2048_1024 : S3072.Slices ![1024] S2048
  bcast_S_S1024x2048 : S_.BroadcastsInDim S1024x2048 (![] : Fin 0 → Fin S1024x2048.rank)
  concatenates_S1024x2048_S1024x2048_S2048x2048_d0 : Shape.Concatenates [S1024x2048, S1024x2048] S2048x2048 0
  bitsLt_bf16_f32 : FTy.bits .bf16 < FTy.bits .f32
  bcast_S_S2048 : S_.BroadcastsInDim S2048 (![] : Fin 0 → Fin S2048.rank)
  shapeCasts_S2048_S1x2048 : S2048.ShapeCasts S1x2048
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  concatenates_S256x1024_S256x1024_S256x2048_d1 : Shape.Concatenates [S256x1024, S256x1024] S256x2048 1
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  slices_S256x2048_o0_0_S256x1024 : S256x2048.Slices ![0, 0] S256x1024
  slices_S256x2048_o0_1024_S256x1024 : S256x2048.Slices ![0, 1024] S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S2048x1024.size a
  hwx0_0 : ∀ i : grid0.Coords, EltTy.bits .f32 = 32 ∨ (Rect.block (s := S2048x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S2048x1024.size a
  hwx0_1 : ∀ i : grid0.Coords, EltTy.bits .f32 = 32 ∨ (Rect.block (s := S2048x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S2048x1024.size a
  hwx0_8 : ∀ i : grid0.Coords, EltTy.bits .f32 = 32 ∨ (Rect.block (s := S2048x1024) S256x1024.size (cc0_transform_8 i) (hinb0_8 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19) S256x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S2048x1024 : Shape := ⟨2, ![2048, 1024]⟩
abbrev S1024x3072 : Shape := ⟨2, ![1024, 3072]⟩
abbrev S3072 : Shape := ⟨1, ![3072]⟩
abbrev S1024 : Shape := ⟨1, ![1024]⟩
abbrev S2048x3072 : Shape := ⟨2, ![2048, 3072]⟩
abbrev S1x3072 : Shape := ⟨2, ![1, 3072]⟩
abbrev S_ : Shape := ⟨0, ![]⟩
abbrev S1x1024 : Shape := ⟨2, ![1, 1024]⟩

abbrev nBuf : Space → Nat
  | .hbm => 110
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x3072, .f32⟩
  | .hbm, ⟨3, _⟩ => ⟨S1024x3072, .f32⟩
  | .hbm, ⟨4, _⟩ => ⟨S1024x3072, .f32⟩
  | .hbm, ⟨5, _⟩ => ⟨S1024x3072, .f32⟩
  | .hbm, ⟨6, _⟩ => ⟨S3072, .f32⟩
  | .hbm, ⟨7, _⟩ => ⟨S3072, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S2048x3072, .f32⟩
  | .hbm, ⟨12, _⟩ => ⟨S2048x3072, .f32⟩
  | .hbm, ⟨13, _⟩ => ⟨S2048x3072, .f32⟩
  | .hbm, ⟨14, _⟩ => ⟨S1x3072, .f32⟩
  | .hbm, ⟨15, _⟩ => ⟨S2048x3072, .f32⟩
  | .hbm, ⟨16, _⟩ => ⟨S2048x3072, .f32⟩
  | .hbm, ⟨17, _⟩ => ⟨S_, .f32⟩
  | .hbm, ⟨18, _⟩ => ⟨S1024x3072, .f32⟩
  | .hbm, ⟨19, _⟩ => ⟨S1024x3072, .f32⟩
  | .hbm, ⟨20, _⟩ => ⟨S1024x3072, .f32⟩
  | .hbm, ⟨21, _⟩ => ⟨S1024x3072, .f32⟩
  | .hbm, ⟨22, _⟩ => ⟨S1024x3072, .i1⟩
  | .hbm, ⟨23, _⟩ => ⟨S1024x3072, .f32⟩
  | .hbm, ⟨24, _⟩ => ⟨S1024x3072, .f32⟩
  | .hbm, ⟨25, _⟩ => ⟨S1024x3072, .f32⟩
  | .hbm, ⟨26, _⟩ => ⟨S1024x3072, .f32⟩
  | .hbm, ⟨27, _⟩ => ⟨S1024x3072, .f32⟩
  | .hbm, ⟨28, _⟩ => ⟨S1024x3072, .f32⟩
  | .hbm, ⟨29, _⟩ => ⟨S1024x3072, .f32⟩
  | .hbm, ⟨30, _⟩ => ⟨S1024x3072, .f32⟩
  | .hbm, ⟨31, _⟩ => ⟨S1024x3072, .f32⟩
  | .hbm, ⟨32, _⟩ => ⟨S_, .f32⟩
  | .hbm, ⟨33, _⟩ => ⟨S1024x3072, .f32⟩
  | .hbm, ⟨34, _⟩ => ⟨S1024x3072, .f32⟩
  | .hbm, ⟨35, _⟩ => ⟨S1024x3072, .f32⟩
  | .hbm, ⟨36, _⟩ => ⟨S1024x3072, .f32⟩
  | .hbm, ⟨37, _⟩ => ⟨S1024x3072, .i1⟩
  | .hbm, ⟨38, _⟩ => ⟨S1024x3072, .f32⟩
  | .hbm, ⟨39, _⟩ => ⟨S1024x3072, .f32⟩
  | .hbm, ⟨40, _⟩ => ⟨S1024x3072, .f32⟩
  | .hbm, ⟨41, _⟩ => ⟨S1024x3072, .f32⟩
  | .hbm, ⟨42, _⟩ => ⟨S1024x3072, .f32⟩
  | .hbm, ⟨43, _⟩ => ⟨S1024x3072, .f32⟩
  | .hbm, ⟨44, _⟩ => ⟨S1024x3072, .f32⟩
  | .hbm, ⟨45, _⟩ => ⟨S1024x3072, .f32⟩
  | .hbm, ⟨46, _⟩ => ⟨S1024x3072, .f32⟩
  | .hbm, ⟨47, _⟩ => ⟨S_, .f32⟩
  | .hbm, ⟨48, _⟩ => ⟨S3072, .f32⟩
  | .hbm, ⟨49, _⟩ => ⟨S3072, .f32⟩
  | .hbm, ⟨50, _⟩ => ⟨S3072, .f32⟩
  | .hbm, ⟨51, _⟩ => ⟨S3072, .f32⟩
  | .hbm, ⟨52, _⟩ => ⟨S3072, .i1⟩
  | .hbm, ⟨53, _⟩ => ⟨S3072, .f32⟩
  | .hbm, ⟨54, _⟩ => ⟨S3072, .f32⟩
  | .hbm, ⟨55, _⟩ => ⟨S3072, .f32⟩
  | .hbm, ⟨56, _⟩ => ⟨S3072, .f32⟩
  | .hbm, ⟨57, _⟩ => ⟨S3072, .f32⟩
  | .hbm, ⟨58, _⟩ => ⟨S3072, .f32⟩
  | .hbm, ⟨59, _⟩ => ⟨S3072, .f32⟩
  | .hbm, ⟨60, _⟩ => ⟨S3072, .f32⟩
  | .hbm, ⟨61, _⟩ => ⟨S2048x1024, .f32⟩
  | .hbm, ⟨62, _⟩ => ⟨S2048x3072, .f32⟩
  | .hbm, ⟨63, _⟩ => ⟨S2048x1024, .f32⟩
  | .hbm, ⟨64, _⟩ => ⟨S2048x3072, .f32⟩
  | .hbm, ⟨65, _⟩ => ⟨S2048x3072, .f32⟩
  | .hbm, ⟨66, _⟩ => ⟨S1x3072, .f32⟩
  | .hbm, ⟨67, _⟩ => ⟨S2048x3072, .f32⟩
  | .hbm, ⟨68, _⟩ => ⟨S2048x3072, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S1x1024, .f32⟩
  | .hbm, ⟨76, _⟩ => ⟨S2048x1024, .f32⟩
  | .hbm, ⟨77, _⟩ => ⟨S2048x1024, .f32⟩
  | .hbm, ⟨78, _⟩ => ⟨S2048x1024, .f32⟩
  | .hbm, ⟨79, _⟩ => ⟨S2048x1024, .f32⟩
  | .hbm, ⟨80, _⟩ => ⟨S2048x1024, .f32⟩
  | .hbm, ⟨81, _⟩ => ⟨S_, .f32⟩
  | .hbm, ⟨82, _⟩ => ⟨S2048x1024, .f32⟩
  | .hbm, ⟨83, _⟩ => ⟨S2048x1024, .f32⟩
  | .hbm, ⟨84, _⟩ => ⟨S_, .f32⟩
  | .hbm, ⟨85, _⟩ => ⟨S2048x1024, .f32⟩
  | .hbm, ⟨86, _⟩ => ⟨S2048x1024, .f32⟩
  | .hbm, ⟨87, _⟩ => ⟨S1x1024, .f32⟩
  | .hbm, ⟨88, _⟩ => ⟨S2048x1024, .f32⟩
  | .hbm, ⟨89, _⟩ => ⟨S2048x1024, .f32⟩
  | .hbm, ⟨90, _⟩ => ⟨S2048x1024, .f32⟩
  | .hbm, ⟨91, _⟩ => ⟨S2048x1024, .f32⟩
  | .hbm, ⟨92, _⟩ => ⟨S2048x1024, .f32⟩
  | .hbm, ⟨93, _⟩ => ⟨S_, .f32⟩
  | .hbm, ⟨94, _⟩ => ⟨S2048x1024, .f32⟩
  | .hbm, ⟨95, _⟩ => ⟨S2048x1024, .f32⟩
  | .hbm, ⟨96, _⟩ => ⟨S_, .f32⟩
  | .hbm, ⟨97, _⟩ => ⟨S2048x1024, .f32⟩
  | .hbm, ⟨98, _⟩ => ⟨S2048x1024, .f32⟩
  | .hbm, ⟨99, _⟩ => ⟨S1x1024, .f32⟩
  | .hbm, ⟨100, _⟩ => ⟨S2048x1024, .f32⟩
  | .hbm, ⟨101, _⟩ => ⟨S2048x1024, .f32⟩
  | .hbm, ⟨102, _⟩ => ⟨S2048x1024, .f32⟩
  | .hbm, ⟨103, _⟩ => ⟨S2048x1024, .f32⟩
  | .hbm, ⟨104, _⟩ => ⟨S2048x1024, .f32⟩
  | .hbm, ⟨105, _⟩ => ⟨S_, .f32⟩
  | .hbm, ⟨106, _⟩ => ⟨S2048x1024, .f32⟩
  | .hbm, ⟨107, _⟩ => ⟨S2048x1024, .f32⟩
  | .hbm, ⟨108, _⟩ => ⟨S2048x1024, .f32⟩
  | .hbm, ⟨109, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_v6 : Ref sig .tc := ⟨.hbm, 30, rfl⟩
abbrev main_v7 : Ref sig .tc := ⟨.hbm, 31, rfl⟩
abbrev main_call1_cst : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_v8 : Ref sig .tc := ⟨.hbm, 45, rfl⟩
abbrev main_v9 : Ref sig .tc := ⟨.hbm, 46, rfl⟩
abbrev main_call2_cst : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_call2_v5 : Ref sig .tc := ⟨.hbm, 53, rfl⟩
abbrev main_call2_v6 : Ref sig .tc := ⟨.hbm, 54, rfl⟩
abbrev main_call2_v7 : Ref sig .tc := ⟨.hbm, 55, rfl⟩
abbrev main_call2_v8 : Ref sig .tc := ⟨.hbm, 56, rfl⟩
abbrev main_call2_v9 : Ref sig .tc := ⟨.hbm, 57, rfl⟩
abbrev main_call2_v10 : Ref sig .tc := ⟨.hbm, 58, rfl⟩
abbrev main_call2_v11 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_cst : Ref sig .tc := ⟨.hbm, 81, rfl⟩
abbrev main_v31 : Ref sig .tc := ⟨.hbm, 82, rfl⟩
abbrev main_v32 : Ref sig .tc := ⟨.hbm, 83, rfl⟩
abbrev main_cst_0 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_cst_1 : Ref sig .tc := ⟨.hbm, 93, rfl⟩
abbrev main_v41 : Ref sig .tc := ⟨.hbm, 94, rfl⟩
abbrev main_v42 : Ref sig .tc := ⟨.hbm, 95, rfl⟩
abbrev main_cst_2 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_cst_3 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩

abbrev nD : Nat := 1
abbrev τ : Topo := Topo.v7x

variable {F : FTy → Type} [FloatOps F]

class Facts₀ : Prop where
  bcast_S3072_S1x3072_1 : S3072.BroadcastsInDim S1x3072 (![1] : Fin 1 → Fin S1x3072.rank)
  bcast_S1x3072_S2048x3072_0_1 : S1x3072.BroadcastsInDim S2048x3072 (![0, 1] : Fin 2 → Fin S2048x3072.rank)
  bcast_S_S1024x3072 : S_.BroadcastsInDim S1024x3072 (![] : Fin 0 → Fin S1024x3072.rank)
  bcast_S_S3072 : S_.BroadcastsInDim S3072 (![] : Fin 0 → Fin S3072.rank)
  slices_S2048x3072_S2048x1024_0_0 : S2048x3072.Slices ![0, 0] S2048x1024
  slices_S2048x3072_S2048x1024_0_1024 : S2048x3072.Slices ![0, 1024] S2048x1024
  slices_S2048x3072_S2048x1024_0_2048 : S2048x3072.Slices ![0, 2048] S2048x1024
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  bcast_S_S2048x1024 : S_.BroadcastsInDim S2048x1024 (![] : Fin 0 → Fin S2048x1024.rank)
  dot_S2048x1024_S1024x3072_S2048x3072_1_0_0_1_n_n_wf : DotDims.WF S2048x1024 S1024x3072 S2048x3072 [1] [0] [0] [1] [] []

variable [Facts₀]

def dot_S2048x1024_S1024x3072_S2048x3072_1_0_0_1_n_n : DotDims S2048x1024 S1024x3072 S2048x3072 where
  lhsContracting := [1]
  rhsContracting := [0]
  lhsNonContracting := [0]
  rhsNonContracting := [1]
  lhsBatch := []
  rhsBatch := []
  wf := dot_S2048x1024_S1024x3072_S2048x3072_1_0_0_1_n_n_wf

class Facts : Prop extends Facts₀ where

variable [Facts]
-- ==== Proof.Spec.lean ====
/-
  The Bayesian GRU cell (local reparameterization), entry by entry on the extended reals.

  For a batch row r and a hidden unit c the new state is
      h'(r, c) = u · h(r, c) + (1 − u) · tanh (mean(r, 2H + c) + var(r, 2H + c) · ε_h(c)),
      u        = sigmoid (mean(r, H + c) + var(r, H + c) · ε_u(c)),
  where, for a gate column j of the 3H = 3072 columns,
      mean(r, j) = Σ_k x(r, k) · W_mu(k, j) + Σ_k h(r, k) · U_mu(k, j) + b_mu(j),
      var(r, j)  = Σ_k x(r, k)² · softplus(W_rho(k, j))² + Σ_k h(r, k)² · softplus(U_rho(k, j))² + softplus(b_rho(j)).
  The first H columns (the r gate) never enter h'.

  Two laws join the two arrangements of this computation:
   · a dot product of two vectors laid end to end is the sum of the dot products of the pieces (`dot_joined`):
     only commutativity and associativity of the extended reals' addition, so no finiteness is needed;
   · the logistic function IS 1 / (1 + e^(−a)) on every extended real, the infinities included (`logistic_eq_sigmoid`).
-/
import Idealize.ShloMosaic.PureOps.Ideal
import Idealize.ShloMosaic.PureOps.IdealRules
import Idealize.ShloMosaic.Lib.ValueIdx

noncomputable section

namespace Cert.Gru

open Idealize.ShloMosaic Idealize.ShloMosaic.ValueIdx
open scoped BigOperators

/-- Activations: batch 2048 by width 1024. -/
abbrev Act := FVec Ideal ⟨2, ![2048, 1024]⟩ .f32
/-- A weight matrix: 1024 inputs by the 3072 gate columns. -/
abbrev Wgt := FVec Ideal ⟨2, ![1024, 3072]⟩ .f32
/-- A bias over the 3072 gate columns. -/
abbrev Bias := FVec Ideal ⟨1, ![3072]⟩ .f32
/-- A noise vector over the 1024 hidden units. -/
abbrev Eps := FVec Ideal ⟨1, ![1024]⟩ .f32

/-- The number zero as both programs write it. -/
abbrev zero : Ideal .f32 := FloatOps.ofBits .f32 0x00000000#32
/-- The number one as both programs write it. -/
abbrev one : Ideal .f32 := FloatOps.ofBits .f32 0x3F800000#32

/-- The written one is the number one. -/
theorem one_eq : one = (1 : EReal) := IdealRules.sign_bit.ideal_onePat .f32

/-- softplus of one entry, log (1 + e^x), as the source library computes it: max (x, 0) + log1p (e^(−|x − 0|)),
    behind a test of x − 0 against itself that selects x + 0 instead. -/
def softplus (x : Ideal .f32) : Ideal .f32 :=
  Scalar.select (FloatOps.cmpf .une (FloatOps.subf x zero) (FloatOps.subf x zero)) (FloatOps.addf x zero)
    (FloatOps.addf (FloatOps.maximumf x zero)
      (FloatOps.hostUnary .log1p (FloatOps.hostUnary .exp (FloatOps.hostNegf (FloatOps.hostAbsf (FloatOps.subf x zero))))))

/-- The sigmoid spelt out: 1 / (1 + e^(−a)). -/
def sigmoid (a : Ideal .f32) : Ideal .f32 :=
  FloatOps.hostDivf one (FloatOps.addf one (FloatOps.hostUnary .exp (FloatOps.hostNegf a)))

/-- The update gate's column for hidden unit c: H + c. -/
abbrev colU (c : Fin 1024) : Fin 3072 := ⟨1024 + c.val, by have := c.isLt; omega⟩
/-- The candidate state's column for hidden unit c: 2H + c. -/
abbrev colH (c : Fin 1024) : Fin 3072 := ⟨2048 + c.val, by have := c.isLt; omega⟩

/-- The mean of gate column j for batch row r. -/
def mean (x h : Act) (Wm Um : Wgt) (bm : Bias) (r : Fin 2048) (j : Fin 3072) : Ideal .f32 :=
  FloatOps.addf
    (FloatOps.addf (∑ k : Fin 1024, x (ix2 r k) * Wm (ix2 k j)) (∑ k : Fin 1024, h (ix2 r k) * Um (ix2 k j)))
    (bm (ix1 j))

/-- The variance term of gate column j for batch row r. -/
def var (x h : Act) (Wr Ur : Wgt) (br : Bias) (r : Fin 2048) (j : Fin 3072) : Ideal .f32 :=
  FloatOps.addf
    (FloatOps.addf
      (∑ k : Fin 1024, FloatOps.mulf (x (ix2 r k)) (x (ix2 r k))
          * FloatOps.mulf (softplus (Wr (ix2 k j))) (softplus (Wr (ix2 k j))))
      (∑ k : Fin 1024, FloatOps.mulf (h (ix2 r k)) (h (ix2 r k))
          * FloatOps.mulf (softplus (Ur (ix2 k j))) (softplus (Ur (ix2 k j)))))
    (softplus (br (ix1 j)))

/-- The update gate of unit c for row r. -/
def gate (x h : Act) (Wm Wr Um Ur : Wgt) (bm br : Bias) (ue : Eps) (r : Fin 2048) (c : Fin 1024) : Ideal .f32 :=
  sigmoid (FloatOps.addf (mean x h Wm Um bm r (colU c)) (FloatOps.mulf (var x h Wr Ur br r (colU c)) (ue (ix1 c))))

/-- The candidate state of unit c for row r. -/
def cand (x h : Act) (Wm Wr Um Ur : Wgt) (bm br : Bias) (he : Eps) (r : Fin 2048) (c : Fin 1024) : Ideal .f32 :=
  FloatOps.hostUnary .tanh
    (FloatOps.addf (mean x h Wm Um bm r (colH c)) (FloatOps.mulf (var x h Wr Ur br r (colH c)) (he (ix1 c))))

/-- The new hidden state at (r, c). -/
def cellAt (x h : Act) (Wm Wr Um Ur : Wgt) (bm br : Bias) (ue he : Eps) (r : Fin 2048) (c : Fin 1024) : Ideal .f32 :=
  FloatOps.addf
    (FloatOps.mulf (gate x h Wm Wr Um Ur bm br ue r c) (h (ix2 r c)))
    (FloatOps.mulf (FloatOps.subf one (gate x h Wm Wr Um Ur bm br ue r c)) (cand x h Wm Wr Um Ur bm br he r c))

/-- The new hidden state, the whole array. -/
def cell (x h : Act) (Wm Wr Um Ur : Wgt) (bm br : Bias) (ue he : Eps) : Act :=
  fun i => cellAt x h Wm Wr Um Ur bm br ue he (i 0) (i 1)

/-! ## The two laws -/

/-- A sum over 2048 positions is the sum over the first 1024 plus the sum over the last 1024. -/
theorem sum_halves (f : Fin 2048 → EReal) :
    ∑ k : Fin 2048, f k
      = ∑ k : Fin 1024, f ⟨k.val, by have := k.isLt; omega⟩ + ∑ k : Fin 1024, f ⟨1024 + k.val, by have := k.isLt; omega⟩ := by
  have h := Fin.sum_univ_add (M := EReal) (a := 1024) (b := 1024) (fun k : Fin (1024 + 1024) => f ⟨k.val, k.isLt⟩)
  refine Eq.trans ?_ (h.trans ?_)
  · rfl
  · rfl

/-- A dot product of two vectors each laid end to end from two pieces is the sum of the pieces' dot products. -/
theorem dot_joined (f g : Fin 2048 → EReal) (a b w u : Fin 1024 → EReal)
    (hfa : ∀ k : Fin 1024, f ⟨k.val, by have := k.isLt; omega⟩ = a k)
    (hfb : ∀ k : Fin 1024, f ⟨1024 + k.val, by have := k.isLt; omega⟩ = b k)
    (hgw : ∀ k : Fin 1024, g ⟨k.val, by have := k.isLt; omega⟩ = w k)
    (hgu : ∀ k : Fin 1024, g ⟨1024 + k.val, by have := k.isLt; omega⟩ = u k) :
    ∑ k : Fin 2048, f k * g k = ∑ k : Fin 1024, a k * w k + ∑ k : Fin 1024, b k * u k := by
  rw [sum_halves]
  congr 1
  · exact Finset.sum_congr rfl fun k _ => by rw [hfa, hgw]
  · exact Finset.sum_congr rfl fun k _ => by rw [hfb, hgu]

/-- The logistic function is the spelt-out sigmoid at every extended real. -/
theorem logistic_eq_sigmoid (a : Ideal .f32) : FloatOps.logistic a = sigmoid a := by
  show Ideal.logistic a = Ideal.div one (one + Ideal.exp (-a))
  rw [one_eq]
  rfl

end Cert.Gru

end
-- ==== Proof.RefIsCell.lean ====
/-
  The reference computes the cell, entry by entry.

  Reading its operations one at a time at an index: the two products added with the broadcast bias are the mean of a
  gate column; the products of the squared inputs with the squared softplus of the rho's, plus the softplus of the rho
  bias, are the variance term; the slices pick gate columns 1024 + c and 2048 + c; negate, exponential, add one and
  divide spell the sigmoid; and the last lines combine gate, previous state and candidate.
-/
import proofs.«143885_j39084202394377_2_alg».proof.Proof.Gen.ReferenceIdeal.Read
import proofs.«143885_j39084202394377_2_alg».proof.Proof.Spec
import Idealize.ShloMosaic.Lib.ValueIdx

noncomputable section

namespace Cert.ReferenceIdeal.RefValue

open Cert.ReferenceIdeal Cert.ReferenceIdeal.Read Cert.Gru Idealize.ShloMosaic Idealize.ShloMosaic.ValueIdx
open scoped BigOperators

variable (x0 x1 : Act) (x2 x3 x4 x5 : Wgt) (x6 x7 : Bias) (x9 x10 : Eps)

/-- The first softplus call, at an entry. -/
theorem softplus_W (i : S1024x3072.Idx) : val_main_v6 (F := Ideal) x3 i = softplus (x3 i) := by
  simp only [val_main_v6_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply, val_main_call0_cst_apply]
  rfl

/-- The second softplus call, at an entry. -/
theorem softplus_U (i : S1024x3072.Idx) : val_main_v8 (F := Ideal) x5 i = softplus (x5 i) := by
  simp only [val_main_v8_apply, val_main_call1_v4_apply, val_main_call1_v6_apply, val_main_call1_v11_apply,
    val_main_call1_v1_apply, val_main_call1_v10_apply, val_main_call1_v9_apply, val_main_call1_v8_apply,
    val_main_call1_v7_apply, val_main_call1_v3_apply, val_main_call1_v0_apply, val_main_call1_v2_apply,
    val_main_call1_v5_apply, val_main_call1_cst_apply]
  rfl

/-- The softplus of the rho bias, at an entry. -/
theorem softplus_b (i : S3072.Idx) : val_main_v10 (F := Ideal) x7 i = softplus (x7 i) := by
  simp only [val_main_v10_apply, val_main_call2_v4_apply, val_main_call2_v6_apply, val_main_call2_v11_apply,
    val_main_call2_v1_apply, val_main_call2_v10_apply, val_main_call2_v9_apply, val_main_call2_v8_apply,
    val_main_call2_v7_apply, val_main_call2_v3_apply, val_main_call2_v0_apply, val_main_call2_v2_apply,
    val_main_call2_v5_apply, val_main_call2_cst_apply]
  rfl

/-- Row r of the left factor at position k. -/
theorem lrow (r : Fin 2048) (j : Fin 3072) (k : Fin 1024) (i : S2048x1024.Idx)
    (h0 : (i 0).val = r.val) (h1 : (i 1).val = k.val) : i = ix2 r k :=
  funext fun a => Fin.ext (by match a with | ⟨0, _⟩ => exact h0 | ⟨1, _⟩ => exact h1)

/-- Column j of the right factor at position k. -/
theorem rcol (j : Fin 3072) (k : Fin 1024) (i : S1024x3072.Idx)
    (h0 : (i 0).val = k.val) (h1 : (i 1).val = j.val) : i = ix2 k j :=
  funext fun a => Fin.ext (by match a with | ⟨0, _⟩ => exact h0 | ⟨1, _⟩ => exact h1)

/-- The fused mean at (r, j). -/
theorem mean_eq (r : Fin 2048) (j : Fin 3072) :
    val_main_v5 (F := Ideal) x0 x1 x2 x4 x6 (ix2 r j) = mean x0 x1 x2 x4 x6 r j := by
  rw [val_main_v5_apply, val_main_v2_apply, val_main_v0_apply, val_main_v1_apply, val_main_v4_apply, val_main_v3_apply]
  unfold mean
  have eb : idx_main_v3 (idx_main_v4 (ix2 r j)) = ix1 j := funext fun a => Fin.ext (by match a with | ⟨0, _⟩ => rfl)
  rw [eb]
  congr 1
  congr 1
  · exact Finset.sum_congr rfl fun k _ => by
      rw [lrow r j k (lidx_main_v0 (ix2 r j) k) rfl rfl, rcol j k (ridx_main_v0 (ix2 r j) k) rfl rfl]
  · exact Finset.sum_congr rfl fun k _ => by
      rw [lrow r j k (lidx_main_v1 (ix2 r j) k) rfl rfl, rcol j k (ridx_main_v1 (ix2 r j) k) rfl rfl]

/-- The variance term at (r, j). -/
theorem var_eq (r : Fin 2048) (j : Fin 3072) :
    val_main_v18 (F := Ideal) x0 x1 x3 x5 x7 (ix2 r j) = var x0 x1 x3 x5 x7 r j := by
  rw [val_main_v18_apply, val_main_v15_apply, val_main_v12_apply, val_main_v14_apply, val_main_v17_apply,
    val_main_v16_apply, softplus_b]
  unfold var
  have eb : idx_main_v16 (idx_main_v17 (ix2 r j)) = ix1 j := funext fun a => Fin.ext (by match a with | ⟨0, _⟩ => rfl)
  rw [eb]
  congr 1
  congr 1
  · exact Finset.sum_congr rfl fun k _ => by
      rw [lrow r j k (lidx_main_v12 (ix2 r j) k) rfl rfl, rcol j k (ridx_main_v12 (ix2 r j) k) rfl rfl,
        val_main_v11_apply, val_main_v7_apply, softplus_W]
  · exact Finset.sum_congr rfl fun k _ => by
      rw [lrow r j k (lidx_main_v14 (ix2 r j) k) rfl rfl, rcol j k (ridx_main_v14 (ix2 r j) k) rfl rfl,
        val_main_v13_apply, val_main_v9_apply, softplus_U]

/-- A slice of the gate columns at (r, c) reads column J of row r. -/
theorem gate_col (r : Fin 2048) (J : Fin 3072) (i : S2048x3072.Idx)
    (h0 : (i 0).val = r.val) (h1 : (i 1).val = J.val) : i = ix2 r J :=
  funext fun a => Fin.ext (by match a with | ⟨0, _⟩ => exact h0 | ⟨1, _⟩ => exact h1)

/-- The update gate at (r, c). -/
theorem gate_eq (r : Fin 2048) (c : Fin 1024) :
    val_main_v44 (F := Ideal) x0 x1 x2 x3 x4 x5 x6 x7 x9 (ix2 r c) = gate x0 x1 x2 x3 x4 x5 x6 x7 x9 r c := by
  have eu : idx_main_v35 (idx_main_v36 (ix2 r c)) = ix1 c := funext fun a => Fin.ext (by match a with | ⟨0, _⟩ => rfl)
  rw [val_main_v44_apply, val_main_v43_apply, val_main_cst_2_apply, val_main_v42_apply, val_main_v41_apply,
    val_main_cst_1_apply, val_main_v40_apply, val_main_v39_apply, val_main_v38_apply, val_main_v20_apply,
    val_main_v37_apply, val_main_v23_apply, val_main_v36_apply, val_main_v35_apply, eu,
    gate_col r (colU c) (idx_main_v20 (ix2 r c)) rfl rfl, gate_col r (colU c) (idx_main_v23 (ix2 r c)) rfl rfl,
    mean_eq, var_eq]
  rfl

/-- The candidate state at (r, c). -/
theorem cand_eq (r : Fin 2048) (c : Fin 1024) :
    val_main_v49 (F := Ideal) x0 x1 x2 x3 x4 x5 x6 x7 x10 (ix2 r c) = cand x0 x1 x2 x3 x4 x5 x6 x7 x10 r c := by
  have eh : idx_main_v45 (idx_main_v46 (ix2 r c)) = ix1 c := funext fun a => Fin.ext (by match a with | ⟨0, _⟩ => rfl)
  rw [val_main_v49_apply, val_main_v48_apply, val_main_v21_apply, val_main_v47_apply, val_main_v24_apply,
    val_main_v46_apply, val_main_v45_apply, eh,
    gate_col r (colH c) (idx_main_v21 (ix2 r c)) rfl rfl, gate_col r (colH c) (idx_main_v24 (ix2 r c)) rfl rfl,
    mean_eq, var_eq]
  rfl

/-- The result at (r, c) is the cell's new state. -/
theorem cell_eq (r : Fin 2048) (c : Fin 1024) :
    val_main_v54 (F := Ideal) x0 x1 x2 x3 x4 x5 x6 x7 x9 x10 (ix2 r c) = cellAt x0 x1 x2 x3 x4 x5 x6 x7 x9 x10 r c := by
  rw [val_main_v54_apply, val_main_v50_apply, val_main_v53_apply, val_main_v52_apply, val_main_v51_apply,
    val_main_cst_3_apply, gate_eq, cand_eq]
  rfl

/-- The reference's result array is the cell of its arguments. -/
theorem result_eq :
    val_main_v54 (F := Ideal) x0 x1 x2 x3 x4 x5 x6 x7 x9 x10 = cell x0 x1 x2 x3 x4 x5 x6 x7 x9 x10 := by
  funext i
  obtain ⟨r, c, rfl⟩ : ∃ (r : Fin 2048) (c : Fin 1024), i = ix2 r c := ⟨i 0, i 1, eq_ix2 i⟩
  exact cell_eq x0 x1 x2 x3 x4 x5 x6 x7 x9 x10 r c

end Cert.ReferenceIdeal.RefValue

end
-- ==== Proof.KernelHost.lean ====
/-
  What the host operations before the kernel leave in the arrays its windows stage.
-/
import proofs.«143885_j39084202394377_2_alg».proof.Proof.Gen.KernelIdeal.Frame
import Idealize.ShloMosaic.Lib.StableHlo.Run
import Idealize.ShloMosaic.Lib.ValueIdx
import Idealize.ShloMosaic.Lib.Pipeline.Value

noncomputable section

namespace Cert.KernelIdeal.Host

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- softplus of every entry of an array, as the source library computes it: max (v, 0) + log1p (e^(−|v − 0|)), behind a
    test of v − 0 against itself that selects v + 0 instead. -/
def softplusV {s : Shape} (hb : S_.BroadcastsInDim s (![] : Fin 0 → Fin s.rank)) (v : FVec F s .f32) : FVec F s .f32 :=
  select (cmpf .une (subf v (broadcastInDim s ![] hb (constant S_ .f32 0x00000000#32)))
      (subf v (broadcastInDim s ![] hb (constant S_ .f32 0x00000000#32))))
    (addf v (broadcastInDim s ![] hb (constant S_ .f32 0x00000000#32)))
    (addf (maximumf v (broadcastInDim s ![] hb (constant S_ .f32 0x00000000#32)))
      (Host.log1p (Host.exp (Host.negf (Host.absf (subf v (broadcastInDim s ![] hb (constant S_ .f32 0x00000000#32))))))))

/-- The fused mean weight: gate columns 1024 … 3071 of the x-weight means on top of those of the h-weight means. -/
theorem V_wmu (c : Dev nD) : (V m c main_v11 : S2048x2048.Idx → Elt F .bf16)
    = truncf .bf16 (concatenate S2048x2048 0
        [⟨S1024x2048, extractStridedSlice S1024x2048 ![0, 1024] (m ((c : Thread nD τ).loc main_arg2)) slices_S1024x3072_S1024x2048_0_1024⟩,
         ⟨S1024x2048, extractStridedSlice S1024x2048 ![0, 1024] (m ((c : Thread nD τ).loc main_arg4)) slices_S1024x3072_S1024x2048_0_1024⟩]
        concatenates_S1024x2048_S1024x2048_S2048x2048_d0) bitsLt_bf16_f32 := by
  dsimp only [V]
  simp only [hostOps0, hostOps0_1, hostOps0_2, hostOps0_3, hostOps0_4, hostOps0_5, hostOps0_6, List.flatten_cons,
    List.flatten_nil, List.append_nil, List.cons_append, List.nil_append]
  after_results_simp <;> rfl

/-- The fused variance weight: the squared softplus of gate columns 1024 … 3071 of the x-weight rho's on top of that of
    the h-weight rho's. -/
theorem V_wsig (c : Dev nD) : (V m c main_v13 : S2048x2048.Idx → Elt F .bf16)
    = truncf .bf16 (concatenate S2048x2048 0
        [⟨S1024x2048, mulf
            (softplusV bcast_S_S1024x2048 (extractStridedSlice S1024x2048 ![0, 1024] (m ((c : Thread nD τ).loc main_arg3)) slices_S1024x3072_S1024x2048_0_1024))
            (softplusV bcast_S_S1024x2048 (extractStridedSlice S1024x2048 ![0, 1024] (m ((c : Thread nD τ).loc main_arg3)) slices_S1024x3072_S1024x2048_0_1024))⟩,
         ⟨S1024x2048, mulf
            (softplusV bcast_S_S1024x2048 (extractStridedSlice S1024x2048 ![0, 1024] (m ((c : Thread nD τ).loc main_arg5)) slices_S1024x3072_S1024x2048_0_1024))
            (softplusV bcast_S_S1024x2048 (extractStridedSlice S1024x2048 ![0, 1024] (m ((c : Thread nD τ).loc main_arg5)) slices_S1024x3072_S1024x2048_0_1024))⟩]
        concatenates_S1024x2048_S1024x2048_S2048x2048_d0) bitsLt_bf16_f32 := by
  dsimp only [V]
  simp only [hostOps0, hostOps0_1, hostOps0_2, hostOps0_3, hostOps0_4, hostOps0_5, hostOps0_6, List.flatten_cons,
    List.flatten_nil, List.append_nil, List.cons_append, List.nil_append]
  after_results_simp <;> rfl

/-- The mean bias row: gate columns 1024 … 3071 of the bias means as one row. -/
theorem V_bmu (c : Dev nD) : (V m c main_v16 : S1x2048.Idx → Elt F .f32)
    = shapeCast S1x2048 (extractStridedSlice S2048 ![1024] (m ((c : Thread nD τ).loc main_arg6)) slices_S3072_S2048_1024)
        shapeCasts_S2048_S1x2048 := by
  dsimp only [V]
  simp only [hostOps0, hostOps0_1, hostOps0_2, hostOps0_3, hostOps0_4, hostOps0_5, hostOps0_6, List.flatten_cons,
    List.flatten_nil, List.append_nil, List.cons_append, List.nil_append]
  after_results_simp <;> rfl

/-- The deviation bias row: the softplus of gate columns 1024 … 3071 of the bias rho's as one row. -/
theorem V_bsig (c : Dev nD) : (V m c main_v15 : S1x2048.Idx → Elt F .f32)
    = shapeCast S1x2048
        (softplusV bcast_S_S2048 (extractStridedSlice S2048 ![1024] (m ((c : Thread nD τ).loc main_arg7)) slices_S3072_S2048_1024))
        shapeCasts_S2048_S1x2048 := by
  dsimp only [V]
  simp only [hostOps0, hostOps0_1, hostOps0_2, hostOps0_3, hostOps0_4, hostOps0_5, hostOps0_6, List.flatten_cons,
    List.flatten_nil, List.append_nil, List.cons_append, List.nil_append]
  after_results_simp <;> rfl

/-- The update gate's noise as one row. -/
theorem V_ue (c : Dev nD) : (V m c main_v17 : S1x1024.Idx → Elt F .f32)
    = shapeCast S1x1024 (m ((c : Thread nD τ).loc main_arg9)) shapeCasts_S1024_S1x1024 := by
  dsimp only [V]
  simp only [hostOps0, hostOps0_1, hostOps0_2, hostOps0_3, hostOps0_4, hostOps0_5, hostOps0_6, List.flatten_cons,
    List.flatten_nil, List.append_nil, List.cons_append, List.nil_append]
  after_results_simp <;> rfl

/-- The candidate's noise as one row. -/
theorem V_he (c : Dev nD) : (V m c main_v18 : S1x1024.Idx → Elt F .f32)
    = shapeCast S1x1024 (m ((c : Thread nD τ).loc main_arg10)) shapeCasts_S1024_S1x1024 := by
  dsimp only [V]
  simp only [hostOps0, hostOps0_1, hostOps0_2, hostOps0_3, hostOps0_4, hostOps0_5, hostOps0_6, List.flatten_cons,
    List.flatten_nil, List.append_nil, List.cons_append, List.nil_append]
  after_results_simp <;> rfl

end Cert.KernelIdeal.Host

end
-- ==== Proof.LibJoin.lean ====
/-
  Two matrices laid end to end, read at an entry.
  Joined along the rows (axis 0), an a × n piece on top of a b × n piece: row k of the join is row k of the top piece
  for k < a, and row a + k of the join is row k of the bottom piece. Joined along the columns (axis 1), an n × a piece
  to the left of an n × b piece: column k of the join is column k of the left piece for k < a, and column a + k of the
  join is column k of the right piece.
-/
import Idealize.ShloMosaic.Lib.Pipeline.Value
import Idealize.ShloMosaic.Lib.ValueIdx

noncomputable section

namespace Cert.LibJoin

open Idealize.ShloMosaic Idealize.ShloMosaic.ValueIdx

variable {α : Type} {n a b t : Nat}

/-- Row k of the top piece is row k of the join. -/
theorem rows_top (x : (⟨2, ![a, n]⟩ : Shape).Idx → α) (y : (⟨2, ![b, n]⟩ : Shape).Idx → α)
    (h : Shape.Concatenates [(⟨2, ![a, n]⟩ : Shape), ⟨2, ![b, n]⟩] ⟨2, ![t, n]⟩ 0) (k : Fin a) (q : Fin n)
    (K : Fin t) (hK : K.val = k.val) :
    concatenate (⟨2, ![t, n]⟩ : Shape) 0 [⟨⟨2, ![a, n]⟩, x⟩, ⟨⟨2, ![b, n]⟩, y⟩] h (ix2 K q) = x (ix2 k q) :=
  concatenate_pair_apply_left (0 : Fin 2) x y h (ix2 K q) rfl (ix2 k q)
    (fun d => match d with | ⟨0, _⟩ => hK.symm | ⟨1, _⟩ => rfl)

/-- Row k of the bottom piece is row a + k of the join. -/
theorem rows_bottom (x : (⟨2, ![a, n]⟩ : Shape).Idx → α) (y : (⟨2, ![b, n]⟩ : Shape).Idx → α)
    (h : Shape.Concatenates [(⟨2, ![a, n]⟩ : Shape), ⟨2, ![b, n]⟩] ⟨2, ![t, n]⟩ 0) (k : Fin b) (q : Fin n)
    (K : Fin t) (hK : K.val = a + k.val) :
    concatenate (⟨2, ![t, n]⟩ : Shape) 0 [⟨⟨2, ![a, n]⟩, x⟩, ⟨⟨2, ![b, n]⟩, y⟩] h (ix2 K q) = y (ix2 k q) :=
  concatenate_pair_apply_right (0 : Fin 2) x y h (ix2 K q) rfl rfl (ix2 k q)
    (fun d hd => match d, hd with
      | ⟨0, _⟩, hd => absurd rfl hd
      | ⟨1, _⟩, _ => rfl)
    (by show k.val + a = K.val; omega)

/-- Column k of the left piece is column k of the join. -/
theorem cols_left (x : (⟨2, ![n, a]⟩ : Shape).Idx → α) (y : (⟨2, ![n, b]⟩ : Shape).Idx → α)
    (h : Shape.Concatenates [(⟨2, ![n, a]⟩ : Shape), ⟨2, ![n, b]⟩] ⟨2, ![n, t]⟩ 1) (p : Fin n) (k : Fin a)
    (K : Fin t) (hK : K.val = k.val) :
    concatenate (⟨2, ![n, t]⟩ : Shape) 1 [⟨⟨2, ![n, a]⟩, x⟩, ⟨⟨2, ![n, b]⟩, y⟩] h (ix2 p K) = x (ix2 p k) :=
  concatenate_pair_apply_left (1 : Fin 2) x y h (ix2 p K) rfl (ix2 p k)
    (fun d => match d with | ⟨0, _⟩ => rfl | ⟨1, _⟩ => hK.symm)

/-- Column k of the right piece is column a + k of the join. -/
theorem cols_right (x : (⟨2, ![n, a]⟩ : Shape).Idx → α) (y : (⟨2, ![n, b]⟩ : Shape).Idx → α)
    (h : Shape.Concatenates [(⟨2, ![n, a]⟩ : Shape), ⟨2, ![n, b]⟩] ⟨2, ![n, t]⟩ 1) (p : Fin n) (k : Fin b)
    (K : Fin t) (hK : K.val = a + k.val) :
    concatenate (⟨2, ![n, t]⟩ : Shape) 1 [⟨⟨2, ![n, a]⟩, x⟩, ⟨⟨2, ![n, b]⟩, y⟩] h (ix2 p K) = y (ix2 p k) :=
  concatenate_pair_apply_right (1 : Fin 2) x y h (ix2 p K) rfl rfl (ix2 p k)
    (fun d hd => match d, hd with
      | ⟨0, _⟩, _ => rfl
      | ⟨1, _⟩, hd => absurd rfl hd)
    (by show k.val + a = K.val; omega)

end Cert.LibJoin

end
-- ==== Proof.LibDot.lean ====
/-
  A plain matrix product read at an index, at the ideal values: for the dimension numbers
  "contract the left operand's axis 1 with the right operand's axis 0, no batch axis" — the record every
  `jnp.dot` / `x @ y` of two matrices prints, whatever its name — the host's `dot_general` and the kernel's
  matrix-unit product into a zero accumulator are both, at (a, b), the sum over c of A (a, c) * B (c, b).
-/
import Idealize.ShloMosaic.Lib.ValueIdx
import Idealize.ShloMosaic.PureOps.Ideal.Laws

noncomputable section

namespace Cert.LibDot

open Idealize.ShloMosaic Idealize.ShloMosaic.ValueIdx
open scoped BigOperators

variable {m k n : Nat} {φ₁ φ₂ : FTy}

/-- The record: left contracting axis 1, right contracting axis 0, kept axes 0 and 1, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem lhsIdx_eq (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have c2 := contrEquiv1_symm_val (dims w) k rfl rfl c
  funext ax; apply Fin.ext
  match ax with
  | ⟨0, _⟩ => simp [DotDims.rhsIdx]; exact c2
  | ⟨1, _⟩ => simp [DotDims.rhsIdx]; rfl

/-- The host's product of two matrices at (a, b): the sum over the contracted coordinate. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (dims w) prec A B (ix2 a b) = ∑ c : Fin k, A (ix2 a c) * B (ix2 c b) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

/-- The matrix unit's product into a zero accumulator at (a, b): the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (dims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

end Cert.LibDot
-- ==== Proof.KernelPoint.lean ====
/-
  One grid point of the cell kernel, read at an entry.

  The body lays a 256-row block of x beside the same rows of h (a 256 × 2048 block), multiplies it — and its entrywise
  square — with a 2048 × 2048 fused weight (the x-weights' gate columns on top of the h-weights'), adds a bias row, and
  from columns c and 1024 + c of the two results forms the gate, the candidate and the new state of hidden unit c.
  Because a dot product of vectors laid end to end is the sum of the pieces' dot products, column j of the fused
  product is the cell's mean (or variance term) of gate column 1024 + j; so the block's entry (p, c) is the cell's new
  state at (row of p, c).
-/
import proofs.«143885_j39084202394377_2_alg».proof.Proof.Gen.KernelIdeal.Value
import proofs.«143885_j39084202394377_2_alg».proof.Proof.Spec
import proofs.«143885_j39084202394377_2_alg».proof.Proof.LibJoin
import proofs.«143885_j39084202394377_2_alg».proof.Proof.LibDot
import Idealize.ShloMosaic.Lib.ValueIdx
import Idealize.ShloMosaic.Lib.Pipeline.Value
import Idealize.ShloMosaic.PureOps.Ideal.Laws

noncomputable section

namespace Cert.KernelIdeal.Point

open Cert.KernelIdeal Cert.KernelIdeal.Gen Cert.Gru Idealize.ShloMosaic Idealize.ShloMosaic.ValueIdx
open scoped BigOperators

variable (P0 P1 : Vec Ideal S256x1024 .f32) (P2 P4 : Vec Ideal S2048x2048 .bf16) (P3 P5 : Vec Ideal S1x2048 .f32)
  (P6 P7 : Vec Ideal S1x1024 .f32)

/-- Column k of the x block is column k of the joined block. -/
theorem joined_left (p : Fin 256) (k : Fin 1024) (K : Fin 2048) (hK : K.val = k.val) :
    k0_pay2 P0 P1 (ix2 p K) = P0 (ix2 p k) := by
  unfold k0_pay2
  exact LibJoin.cols_left P0 P1 _ p k K hK

/-- Column k of the h block is column 1024 + k of the joined block. -/
theorem joined_right (p : Fin 256) (k : Fin 1024) (K : Fin 2048) (hK : K.val = 1024 + k.val) :
    k0_pay2 P0 P1 (ix2 p K) = P1 (ix2 p k) := by
  unfold k0_pay2
  exact LibJoin.cols_right P0 P1 _ p k K hK

/-- A 1 × 2048 row spread over 256 rows, read at (p, j): the row's entry j. -/
theorem row_spread (v : Vec Ideal S1x2048 .f32) (hb : S1x2048.Broadcasts S256x2048) (p : Fin 256) (j : Fin 2048) :
    broadcastTo S256x2048 v hb (ix2 p j) = v (ix2 (0 : Fin 1) j) :=
  broadcastTo_apply v hb (ix2 p j) (ix2 (0 : Fin 1) j) (fun a => match a with
    | ⟨0, _⟩ => by show 0 = if (1 : Nat) = 1 then 0 else p.val; rw [if_pos rfl]
    | ⟨1, _⟩ => by show j.val = if (2048 : Nat) = 1 then 0 else j.val; rw [if_neg (by decide)])

/-- The fused mean product at (p, j): the joined block's row p against column j of the fused weight, plus the bias. -/
theorem mean_pay (p : Fin 256) (j : Fin 2048) :
    k0_pay3 P0 P1 P2 P3 (ix2 p j)
      = (∑ k : Fin 2048, k0_pay2 P0 P1 (ix2 p k) * P2 (ix2 k j)) + P3 (ix2 (0 : Fin 1) j) := by
  unfold k0_pay3
  refine (addf_apply _ _ _).trans ?_
  congr 1
  · refine (LibDot.matmul_zero_apply dot_S256x2048_S2048x2048_S256x2048_1_0_0_1_n_n.wf none _ _ p j).trans ?_
    rw [shapeCast_self]
    rfl
  · rw [shapeCast_self]
    exact row_spread P3 _ p j

/-- The fused variance product at (p, j): the squared joined block's row p against column j of the fused squared
    deviations, plus the deviation bias. -/
theorem var_pay (p : Fin 256) (j : Fin 2048) :
    k0_pay4 P0 P1 P4 P5 (ix2 p j)
      = (∑ k : Fin 2048, FloatOps.mulf (k0_pay2 P0 P1 (ix2 p k)) (k0_pay2 P0 P1 (ix2 p k)) * P4 (ix2 k j))
        + P5 (ix2 (0 : Fin 1) j) := by
  unfold k0_pay4
  refine (addf_apply _ _ _).trans ?_
  congr 1
  · refine (LibDot.matmul_zero_apply dot_S256x2048_S2048x2048_S256x2048_1_0_0_1_n_n.wf none _ _ p j).trans ?_
    rw [shapeCast_self]
    rfl
  · rw [shapeCast_self]
    exact row_spread P5 _ p j

/-- What the staged blocks of one grid point hold, in terms of the cell's arguments: block row p is batch row R p;
    the fused weights hold gate columns 1024 … 3071 of the x-weights on top of those of the h-weights (the squared
    softplus of the rho's for the variance path); the bias rows hold the same gate columns; the noise rows are the
    noise vectors. -/
structure Staged (x h : Act) (Wm Wr Um Ur : Wgt) (bm br : Bias) (ue he : Eps) (R : Fin 256 → Fin 2048)
    (P0 P1 : Vec Ideal S256x1024 .f32) (P2 P4 : Vec Ideal S2048x2048 .bf16) (P3 P5 : Vec Ideal S1x2048 .f32)
    (P6 P7 : Vec Ideal S1x1024 .f32) : Prop where
  hx : ∀ (p : Fin 256) (k : Fin 1024), P0 (ix2 p k) = x (ix2 (R p) k)
  hh : ∀ (p : Fin 256) (k : Fin 1024), P1 (ix2 p k) = h (ix2 (R p) k)
  hWm : ∀ (k : Fin 1024) (K j : Fin 2048) (J : Fin 3072), K.val = k.val → J.val = 1024 + j.val →
    P2 (ix2 K j) = Wm (ix2 k J)
  hUm : ∀ (k : Fin 1024) (K j : Fin 2048) (J : Fin 3072), K.val = 1024 + k.val → J.val = 1024 + j.val →
    P2 (ix2 K j) = Um (ix2 k J)
  hWr : ∀ (k : Fin 1024) (K j : Fin 2048) (J : Fin 3072), K.val = k.val → J.val = 1024 + j.val →
    P4 (ix2 K j) = FloatOps.mulf (softplus (Wr (ix2 k J))) (softplus (Wr (ix2 k J)))
  hUr : ∀ (k : Fin 1024) (K j : Fin 2048) (J : Fin 3072), K.val = 1024 + k.val → J.val = 1024 + j.val →
    P4 (ix2 K j) = FloatOps.mulf (softplus (Ur (ix2 k J))) (softplus (Ur (ix2 k J)))
  hbm : ∀ (j : Fin 2048) (J : Fin 3072), J.val = 1024 + j.val → P3 (ix2 (0 : Fin 1) j) = bm (ix1 J)
  hbr : ∀ (j : Fin 2048) (J : Fin 3072), J.val = 1024 + j.val → P5 (ix2 (0 : Fin 1) j) = softplus (br (ix1 J))
  hue : ∀ c : Fin 1024, P6 (ix2 (0 : Fin 1) c) = ue (ix1 c)
  hhe : ∀ c : Fin 1024, P7 (ix2 (0 : Fin 1) c) = he (ix1 c)

variable {x h : Act} {Wm Wr Um Ur : Wgt} {bm br : Bias} {ue he : Eps} {R : Fin 256 → Fin 2048}
variable {P0 P1 P2 P3 P4 P5 P6 P7}

/-- Column j of the fused mean product is the cell's mean of gate column 1024 + j. -/
theorem mean_col (S : Staged x h Wm Wr Um Ur bm br ue he R P0 P1 P2 P4 P3 P5 P6 P7) (p : Fin 256) (j : Fin 2048)
    (J : Fin 3072) (hJ : J.val = 1024 + j.val) :
    k0_pay3 P0 P1 P2 P3 (ix2 p j) = mean x h Wm Um bm (R p) J := by
  rw [mean_pay]
  unfold mean
  show _ + _ = (_ + _) + _
  rw [S.hbm j J hJ]
  congr 1
  exact dot_joined (fun k => k0_pay2 P0 P1 (ix2 p k)) (fun k => P2 (ix2 k j))
    (fun k => x (ix2 (R p) k)) (fun k => h (ix2 (R p) k)) (fun k => Wm (ix2 k J)) (fun k => Um (ix2 k J))
    (fun k => (joined_left P0 P1 p k _ rfl).trans (S.hx p k))
    (fun k => (joined_right P0 P1 p k _ rfl).trans (S.hh p k))
    (fun k => S.hWm k _ j J rfl hJ)
    (fun k => S.hUm k _ j J rfl hJ)

/-- Column j of the fused variance product is the cell's variance term of gate column 1024 + j. -/
theorem var_col (S : Staged x h Wm Wr Um Ur bm br ue he R P0 P1 P2 P4 P3 P5 P6 P7) (p : Fin 256) (j : Fin 2048)
    (J : Fin 3072) (hJ : J.val = 1024 + j.val) :
    k0_pay4 P0 P1 P4 P5 (ix2 p j) = var x h Wr Ur br (R p) J := by
  rw [var_pay]
  unfold var
  show _ + _ = (_ + _) + _
  rw [S.hbr j J hJ]
  congr 1
  exact dot_joined (fun k => FloatOps.mulf (k0_pay2 P0 P1 (ix2 p k)) (k0_pay2 P0 P1 (ix2 p k))) (fun k => P4 (ix2 k j))
    (fun k => FloatOps.mulf (x (ix2 (R p) k)) (x (ix2 (R p) k))) (fun k => FloatOps.mulf (h (ix2 (R p) k)) (h (ix2 (R p) k)))
    (fun k => FloatOps.mulf (softplus (Wr (ix2 k J))) (softplus (Wr (ix2 k J))))
    (fun k => FloatOps.mulf (softplus (Ur (ix2 k J))) (softplus (Ur (ix2 k J))))
    (fun k => by show FloatOps.mulf _ _ = _; rw [(joined_left P0 P1 p k _ rfl).trans (S.hx p k)])
    (fun k => by show FloatOps.mulf _ _ = _; rw [(joined_right P0 P1 p k _ rfl).trans (S.hh p k)])
    (fun k => S.hWr k _ j J rfl hJ)
    (fun k => S.hUr k _ j J rfl hJ)

/-- Entry (p, c) of what a grid point leaves in its output block is the cell's new state at (R p, c). -/
theorem cell_point (S : Staged x h Wm Wr Um Ur bm br ue he R P0 P1 P2 P4 P3 P5 P6 P7) (p : Fin 256) (c : Fin 1024) :
    Value.E8 P0 P1 P2 P3 P4 P5 P6 P7 (ix2 p c) = cellAt x h Wm Wr Um Ur bm br ue he (R p) c := by
  have hc := c.isLt
  have eA : ∀ i : S256x2048.Idx, (i 0).val = p.val → (i 1).val = c.val → i = ix2 p (⟨c.val, by omega⟩ : Fin 2048) :=
    fun i h0 h1 => funext fun a => Fin.ext (by match a with | ⟨0, _⟩ => exact h0 | ⟨1, _⟩ => exact h1)
  have eB : ∀ i : S256x2048.Idx, (i 0).val = p.val → (i 1).val = c.val + 1024 →
      i = ix2 p (⟨c.val + 1024, by omega⟩ : Fin 2048) :=
    fun i h0 h1 => funext fun a => Fin.ext (by match a with | ⟨0, _⟩ => exact h0 | ⟨1, _⟩ => exact h1)
  have eE : ∀ i : S1x1024.Idx, (i 0).val = 0 → (i 1).val = c.val → i = ix2 (0 : Fin 1) c :=
    fun i h0 h1 => funext fun a => Fin.ext (by match a with | ⟨0, _⟩ => exact h0 | ⟨1, _⟩ => exact h1)
  have e0 := eA (Value.ix8_0 (ix2 p c)) rfl rfl
  have e1 := eA (Value.ix8_1 (ix2 p c)) rfl rfl
  have e2 := eE (Value.ix8_2 (ix2 p c)) rfl rfl
  have e3 : Value.ix8_3 (ix2 p c) = ix2 p c :=
    funext fun a => Fin.ext (by match a with | ⟨0, _⟩ => rfl | ⟨1, _⟩ => rfl)
  have e4 := eA (Value.ix8_4 (ix2 p c)) rfl rfl
  have e5 := eA (Value.ix8_5 (ix2 p c)) rfl rfl
  have e6 := eE (Value.ix8_6 (ix2 p c)) rfl rfl
  have e7 := eB (Value.ix8_7 (ix2 p c)) rfl rfl
  have e8 := eB (Value.ix8_8 (ix2 p c)) rfl rfl
  have e9 := eE (Value.ix8_9 (ix2 p c)) rfl rfl
  have mU := mean_col S p (⟨c.val, by omega⟩ : Fin 2048) (colU c) rfl
  have vU := var_col S p (⟨c.val, by omega⟩ : Fin 2048) (colU c) rfl
  have mH := mean_col S p (⟨c.val + 1024, by omega⟩ : Fin 2048) (colH c) (by show 2048 + c.val = 1024 + (c.val + 1024); omega)
  have vH := var_col S p (⟨c.val + 1024, by omega⟩ : Fin 2048) (colH c) (by show 2048 + c.val = 1024 + (c.val + 1024); omega)
  dsimp only [Value.E8]
  rw [e0, e1, e2, e3, e4, e5, e6, e7, e8, e9, mU, vU, mH, vH, S.hue c, S.hhe c, S.hh p c, logistic_eq_sigmoid]
  rfl

end Cert.KernelIdeal.Point

end
-- ==== Proof.KernelBlocks.lean ====
/-
  From the grid points' blocks to the whole result array.

  Grid point t stages rows 256 t … 256 t + 255 of x and of h and the whole of the six other operands, and writes back
  rows 256 t … 256 t + 255 of the result. What the host operations left in the staged arrays, read at an entry, are the
  gate columns 1024 … 3071 of the cell's weights and biases (the x-part on top of the h-part), so each point's block is
  the cell's new state on its rows; the eight blocks tile the array, so the array ends holding the cell's new state.
-/
import proofs.«143885_j39084202394377_2_alg».proof.Proof.Gen.KernelIdeal.Value
import proofs.«143885_j39084202394377_2_alg».proof.Proof.KernelHost
import proofs.«143885_j39084202394377_2_alg».proof.Proof.KernelPoint
import proofs.«143885_j39084202394377_2_alg».proof.Proof.Spec
import proofs.«143885_j39084202394377_2_alg».proof.Proof.LibJoin
import Idealize.ShloMosaic.Lib.Pipeline.Value
import Idealize.ShloMosaic.Lib.ValueIdx
import Idealize.ShloMosaic.Lib.Tactic

noncomputable section

namespace Cert.KernelIdeal.Blocks

open Cert.KernelIdeal Cert.KernelIdeal.Gen Cert.Gru Idealize.ShloMosaic Idealize.ShloMosaic.ValueIdx
open Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- Where each window's block sits at grid point t: the x, h and result windows at block row t, the others whole. -/
structure IdxFacts (t : Fin cfg0.N) : Prop where
  «00» : win0_0.index t (0 : Fin 2) = t.val
  «01» : win0_0.index t (1 : Fin 2) = 0
  «10» : win0_1.index t (0 : Fin 2) = t.val
  «11» : win0_1.index t (1 : Fin 2) = 0
  «20» : win0_2.index t (0 : Fin 2) = 0
  «21» : win0_2.index t (1 : Fin 2) = 0
  «30» : win0_3.index t (0 : Fin 2) = 0
  «31» : win0_3.index t (1 : Fin 2) = 0
  «40» : win0_4.index t (0 : Fin 2) = 0
  «41» : win0_4.index t (1 : Fin 2) = 0
  «50» : win0_5.index t (0 : Fin 2) = 0
  «51» : win0_5.index t (1 : Fin 2) = 0
  «60» : win0_6.index t (0 : Fin 2) = 0
  «61» : win0_6.index t (1 : Fin 2) = 0
  «70» : win0_7.index t (0 : Fin 2) = 0
  «71» : win0_7.index t (1 : Fin 2) = 0
  «80» : win0_8.index t (0 : Fin 2) = t.val
  «81» : win0_8.index t (1 : Fin 2) = 0

/-- The printed index maps, decided over the eight grid points. -/
theorem idx_facts : ∀ t : Fin cfg0.N, IdxFacts t :=
  fun t => by
    have h : ∀ t : Fin cfg0.N, win0_0.index t (0 : Fin 2) = t.val ∧ win0_0.index t (1 : Fin 2) = 0
        ∧ win0_1.index t (0 : Fin 2) = t.val ∧ win0_1.index t (1 : Fin 2) = 0
        ∧ win0_2.index t (0 : Fin 2) = 0 ∧ win0_2.index t (1 : Fin 2) = 0
        ∧ win0_3.index t (0 : Fin 2) = 0 ∧ win0_3.index t (1 : Fin 2) = 0
        ∧ win0_4.index t (0 : Fin 2) = 0 ∧ win0_4.index t (1 : Fin 2) = 0
        ∧ win0_5.index t (0 : Fin 2) = 0 ∧ win0_5.index t (1 : Fin 2) = 0
        ∧ win0_6.index t (0 : Fin 2) = 0 ∧ win0_6.index t (1 : Fin 2) = 0
        ∧ win0_7.index t (0 : Fin 2) = 0 ∧ win0_7.index t (1 : Fin 2) = 0
        ∧ win0_8.index t (0 : Fin 2) = t.val ∧ win0_8.index t (1 : Fin 2) = 0 :=
      (by decide +kernel : ∀ t : Fin grid0.N, _)
    obtain ⟨a0, a1, b0, b1, c0, c1, d0, d1, e0, e1, f0, f1, g0, g1, h0, h1, i0, i1⟩ := h t
    exact ⟨a0, a1, b0, b1, c0, c1, d0, d1, e0, e1, f0, f1, g0, g1, h0, h1, i0, i1⟩

theorem t_lt (t : Fin cfg0.N) : t.val < 8 := lt_of_lt_of_eq t.isLt N_0

/-! ## The cell's arguments and result on a core -/

abbrev aX (c : Dev nD) : Act := m ((c : Thread nD τ).loc main_arg0)
abbrev aH (c : Dev nD) : Act := m ((c : Thread nD τ).loc main_arg1)
abbrev aWm (c : Dev nD) : Wgt := m ((c : Thread nD τ).loc main_arg2)
abbrev aWr (c : Dev nD) : Wgt := m ((c : Thread nD τ).loc main_arg3)
abbrev aUm (c : Dev nD) : Wgt := m ((c : Thread nD τ).loc main_arg4)
abbrev aUr (c : Dev nD) : Wgt := m ((c : Thread nD τ).loc main_arg5)
abbrev aBm (c : Dev nD) : Bias := m ((c : Thread nD τ).loc main_arg6)
abbrev aBr (c : Dev nD) : Bias := m ((c : Thread nD τ).loc main_arg7)
abbrev aUe (c : Dev nD) : Eps := m ((c : Thread nD τ).loc main_arg9)
abbrev aHe (c : Dev nD) : Eps := m ((c : Thread nD τ).loc main_arg10)

/-- The cell's new state of the arguments as launched. -/
abbrev cellOf (c : Dev nD) : S2048x1024.Idx → Elt Ideal .f32 :=
  cell (aX m c) (aH m c) (aWm m c) (aWr m c) (aUm m c) (aUr m c) (aBm m c) (aBr m c) (aUe m c) (aHe m c)

/-! ## The blocks, read at an entry -/

/-- Row p of the x block at point t is batch row 256 t + p. -/
theorem blk_x (c : Dev nD) (t : Fin cfg0.N) (p : Fin 256) (k : Fin 1024) (R : Fin 2048) (hR : R.val = 256 * t.val + p.val) :
    (iblk m c 0 t : Vec Ideal S256x1024 .f32) (ix2 p k) = aX m c (ix2 R k) := by
  have e := idx_facts t
  unfold iblk
  rw [View.read_apply]
  show V m c main_arg0 _ = _
  refine (congrFun (V_main_arg0 m c) _).trans (congrArg (aX m c) (funext fun d => Fin.ext ?_))
  match d with
  | ⟨0, _⟩ => show win0_0.index t (0 : Fin 2) * 256 + 1 * p.val = R.val; rw [e.«00», hR]; omega
  | ⟨1, _⟩ => show win0_0.index t (1 : Fin 2) * 1024 + 1 * k.val = k.val; rw [e.«01»]; omega

/-- Row p of the h block at point t is batch row 256 t + p. -/
theorem blk_h (c : Dev nD) (t : Fin cfg0.N) (p : Fin 256) (k : Fin 1024) (R : Fin 2048) (hR : R.val = 256 * t.val + p.val) :
    (iblk m c 1 t : Vec Ideal S256x1024 .f32) (ix2 p k) = aH m c (ix2 R k) := by
  have e := idx_facts t
  unfold iblk
  rw [View.read_apply]
  show V m c main_arg1 _ = _
  refine (congrFun (V_main_arg1 m c) _).trans (congrArg (aH m c) (funext fun d => Fin.ext ?_))
  match d with
  | ⟨0, _⟩ => show win0_1.index t (0 : Fin 2) * 256 + 1 * p.val = R.val; rw [e.«10», hR]; omega
  | ⟨1, _⟩ => show win0_1.index t (1 : Fin 2) * 1024 + 1 * k.val = k.val; rw [e.«11»]; omega

/-- The fused mean weight is staged whole. -/
theorem blk_wmu (c : Dev nD) (t : Fin cfg0.N) (a : Fin 2048) (b : Fin 2048) :
    (iblk m c 2 t : Vec Ideal S2048x2048 .bf16) (ix2 a b) = (V m c main_v11 : S2048x2048.Idx → Elt Ideal .bf16) (ix2 a b) := by
  have e := idx_facts t
  unfold iblk
  rw [View.read_apply]
  show V m c main_v11 _ = _
  refine congrArg (V m c main_v11 : S2048x2048.Idx → Elt Ideal .bf16) (funext fun d => Fin.ext ?_)
  match d with
  | ⟨0, _⟩ => show win0_2.index t (0 : Fin 2) * 2048 + 1 * a.val = a.val; rw [e.«20»]; omega
  | ⟨1, _⟩ => show win0_2.index t (1 : Fin 2) * 2048 + 1 * b.val = b.val; rw [e.«21»]; omega

/-- The fused variance weight is staged whole. -/
theorem blk_wsig (c : Dev nD) (t : Fin cfg0.N) (a : Fin 2048) (b : Fin 2048) :
    (iblk m c 3 t : Vec Ideal S2048x2048 .bf16) (ix2 a b) = (V m c main_v13 : S2048x2048.Idx → Elt Ideal .bf16) (ix2 a b) := by
  have e := idx_facts t
  unfold iblk
  rw [View.read_apply]
  show V m c main_v13 _ = _
  refine congrArg (V m c main_v13 : S2048x2048.Idx → Elt Ideal .bf16) (funext fun d => Fin.ext ?_)
  match d with
  | ⟨0, _⟩ => show win0_3.index t (0 : Fin 2) * 2048 + 1 * a.val = a.val; rw [e.«30»]; omega
  | ⟨1, _⟩ => show win0_3.index t (1 : Fin 2) * 2048 + 1 * b.val = b.val; rw [e.«31»]; omega

/-- The mean bias row is staged whole. -/
theorem blk_bmu (c : Dev nD) (t : Fin cfg0.N) (a : Fin 1) (b : Fin 2048) :
    (iblk m c 4 t : Vec Ideal S1x2048 .f32) (ix2 a b) = (V m c main_v16 : S1x2048.Idx → Elt Ideal .f32) (ix2 a b) := by
  have e := idx_facts t
  unfold iblk
  rw [View.read_apply]
  show V m c main_v16 _ = _
  refine congrArg (V m c main_v16 : S1x2048.Idx → Elt Ideal .f32) (funext fun d => Fin.ext ?_)
  match d with
  | ⟨0, _⟩ => show win0_4.index t (0 : Fin 2) * 1 + 1 * a.val = a.val; rw [e.«40»]; omega
  | ⟨1, _⟩ => show win0_4.index t (1 : Fin 2) * 2048 + 1 * b.val = b.val; rw [e.«41»]; omega

/-- The deviation bias row is staged whole. -/
theorem blk_bsig (c : Dev nD) (t : Fin cfg0.N) (a : Fin 1) (b : Fin 2048) :
    (iblk m c 5 t : Vec Ideal S1x2048 .f32) (ix2 a b) = (V m c main_v15 : S1x2048.Idx → Elt Ideal .f32) (ix2 a b) := by
  have e := idx_facts t
  unfold iblk
  rw [View.read_apply]
  show V m c main_v15 _ = _
  refine congrArg (V m c main_v15 : S1x2048.Idx → Elt Ideal .f32) (funext fun d => Fin.ext ?_)
  match d with
  | ⟨0, _⟩ => show win0_5.index t (0 : Fin 2) * 1 + 1 * a.val = a.val; rw [e.«50»]; omega
  | ⟨1, _⟩ => show win0_5.index t (1 : Fin 2) * 2048 + 1 * b.val = b.val; rw [e.«51»]; omega

/-- The update gate's noise row is staged whole. -/
theorem blk_ue (c : Dev nD) (t : Fin cfg0.N) (a : Fin 1) (b : Fin 1024) :
    (iblk m c 6 t : Vec Ideal S1x1024 .f32) (ix2 a b) = (V m c main_v17 : S1x1024.Idx → Elt Ideal .f32) (ix2 a b) := by
  have e := idx_facts t
  unfold iblk
  rw [View.read_apply]
  show V m c main_v17 _ = _
  refine congrArg (V m c main_v17 : S1x1024.Idx → Elt Ideal .f32) (funext fun d => Fin.ext ?_)
  match d with
  | ⟨0, _⟩ => show win0_6.index t (0 : Fin 2) * 1 + 1 * a.val = a.val; rw [e.«60»]; omega
  | ⟨1, _⟩ => show win0_6.index t (1 : Fin 2) * 1024 + 1 * b.val = b.val; rw [e.«61»]; omega

/-- The candidate's noise row is staged whole. -/
theorem blk_he (c : Dev nD) (t : Fin cfg0.N) (a : Fin 1) (b : Fin 1024) :
    (iblk m c 7 t : Vec Ideal S1x1024 .f32) (ix2 a b) = (V m c main_v18 : S1x1024.Idx → Elt Ideal .f32) (ix2 a b) := by
  have e := idx_facts t
  unfold iblk
  rw [View.read_apply]
  show V m c main_v18 _ = _
  refine congrArg (V m c main_v18 : S1x1024.Idx → Elt Ideal .f32) (funext fun d => Fin.ext ?_)
  match d with
  | ⟨0, _⟩ => show win0_7.index t (0 : Fin 2) * 1 + 1 * a.val = a.val; rw [e.«70»]; omega
  | ⟨1, _⟩ => show win0_7.index t (1 : Fin 2) * 1024 + 1 * b.val = b.val; rw [e.«71»]; omega

/-- softplus of every entry, at an entry. -/
theorem softplusV_apply {s : Shape} (hb : S_.BroadcastsInDim s (![] : Fin 0 → Fin s.rank)) (v : FVec Ideal s .f32) (i : s.Idx) :
    Host.softplusV hb v i = softplus (v i) := rfl

/-- Entry (k, j) of the slice of gate columns 1024 … 3071 is entry (k, 1024 + j). -/
theorem gate_cols (w : Wgt) (hs : S1024x3072.Slices ![0, 1024] S1024x2048) (k : Fin 1024) (j : Fin 2048) (J : Fin 3072)
    (hJ : J.val = 1024 + j.val) : extractStridedSlice S1024x2048 ![0, 1024] w hs (ix2 k j) = w (ix2 k J) :=
  extractStridedSlice_apply ![0, 1024] w hs (ix2 k j) (ix2 k J) (fun a => match a with
    | ⟨0, _⟩ => by show k.val = 0 + k.val; omega
    | ⟨1, _⟩ => by show J.val = 1024 + j.val; exact hJ)

/-- Entry j of the slice of gate columns 1024 … 3071 of a bias is entry 1024 + j. -/
theorem gate_bias (b : Bias) (hs : S3072.Slices ![1024] S2048) (j : Fin 2048) (J : Fin 3072) (hJ : J.val = 1024 + j.val) :
    extractStridedSlice S2048 ![1024] b hs (ix1 j) = b (ix1 J) :=
  extractStridedSlice_apply ![1024] b hs (ix1 j) (ix1 J) (fun a => match a with
    | ⟨0, _⟩ => by show J.val = 1024 + j.val; exact hJ)

/-- A vector reshaped to one row, at entry (0, q): the vector's entry q. -/
theorem row_entry {n : Nat} {α : Type} (v : (⟨1, ![n]⟩ : Shape).Idx → α) (hc : (⟨1, ![n]⟩ : Shape).ShapeCasts ⟨2, ![1, n]⟩)
    (q : Fin n) : shapeCast ⟨2, ![1, n]⟩ v hc (ix2 (0 : Fin 1) q) = v (ix1 q) :=
  shapeCast_apply v hc (ix2 (0 : Fin 1) q) (ix1 q) (by
    rw [Shape.rowMajor_val_one, Shape.rowMajor_val_two]
    show q.val = 0 * n + q.val
    omega)

/-- What grid point t has staged, in the cell's terms. -/
theorem staged (c : Dev nD) (t : Fin cfg0.N) :
    Point.Staged (aX m c) (aH m c) (aWm m c) (aWr m c) (aUm m c) (aUr m c) (aBm m c) (aBr m c) (aUe m c) (aHe m c)
      (fun p => (⟨256 * t.val + p.val, by have := t_lt t; have := p.isLt; omega⟩ : Fin 2048))
      (iblk m c 0 t) (iblk m c 1 t) (iblk m c 2 t) (iblk m c 3 t) (iblk m c 4 t) (iblk m c 5 t) (iblk m c 6 t) (iblk m c 7 t) where
  hx := fun p k => blk_x m c t p k _ rfl
  hh := fun p k => blk_h m c t p k _ rfl
  hWm := fun k K j J hK hJ => by
    rw [blk_wmu, Host.V_wmu]
    refine (truncf_apply (ψ := .bf16) _ bitsLt_bf16_f32 _).trans ?_
    refine (LibJoin.rows_top _ _ _ k j K hK).trans ?_
    exact gate_cols (aWm m c) _ k j J hJ
  hUm := fun k K j J hK hJ => by
    rw [blk_wmu, Host.V_wmu]
    refine (truncf_apply (ψ := .bf16) _ bitsLt_bf16_f32 _).trans ?_
    refine (LibJoin.rows_bottom _ _ _ k j K hK).trans ?_
    exact gate_cols (aUm m c) _ k j J hJ
  hWr := fun k K j J hK hJ => by
    rw [blk_wsig, Host.V_wsig]
    refine (truncf_apply (ψ := .bf16) _ bitsLt_bf16_f32 _).trans ?_
    refine (LibJoin.rows_top _ _ _ k j K hK).trans ?_
    refine (mulf_apply _ _ _).trans ?_
    rw [softplusV_apply, gate_cols (aWr m c) _ k j J hJ]
    rfl
  hUr := fun k K j J hK hJ => by
    rw [blk_wsig, Host.V_wsig]
    refine (truncf_apply (ψ := .bf16) _ bitsLt_bf16_f32 _).trans ?_
    refine (LibJoin.rows_bottom _ _ _ k j K hK).trans ?_
    refine (mulf_apply _ _ _).trans ?_
    rw [softplusV_apply, gate_cols (aUr m c) _ k j J hJ]
    rfl
  hbm := fun j J hJ => by
    rw [blk_bmu, Host.V_bmu]
    refine (row_entry _ _ j).trans ?_
    exact gate_bias (aBm m c) _ j J hJ
  hbr := fun j J hJ => by
    rw [blk_bsig, Host.V_bsig]
    refine (row_entry _ _ j).trans ?_
    rw [softplusV_apply, gate_bias (aBr m c) _ j J hJ]
  hue := fun q => by
    rw [blk_ue, Host.V_ue]
    exact row_entry _ _ q
  hhe := fun q => by
    rw [blk_he, Host.V_he]
    exact row_entry _ _ q

/-! ## What a point writes back, the cover, the final array -/

/-- Grid point t writes back rows 256 t … 256 t + 255 of the cell's new state. -/
theorem flushed_eq (c : Dev nD) (t : Fin cfg0.N) :
    (dats m 0 c).flushed 8 t = ((cfg0.win 8).blk t).view.read (Elt Ideal) (cellOf m c) := by
  have e := idx_facts t
  rw [Value.flushed8]
  unfold out0_8
  simp only [View.ld_unit_zero (S := S256x1024) hz, View.ld_unit_zero (S := S2048x2048) hz,
    View.ld_unit_zero (S := S1x2048) hz, View.ld_unit_zero (S := S1x1024) hz]
  funext y
  show View.canon [⟨r0_0, k0_pay1
      (k0_pay6 (iblk m c 0 t) (iblk m c 1 t) (iblk m c 2 t) (iblk m c 4 t) (iblk m c 3 t) (iblk m c 5 t) (iblk m c 6 t))
      (k0_pay7 (iblk m c 0 t) (iblk m c 1 t) (iblk m c 2 t) (iblk m c 4 t) (iblk m c 3 t) (iblk m c 5 t) (iblk m c 6 t) (iblk m c 7 t))⟩] y
    = cellOf m c (((cfg0.win 8).blk t).view.emb y)
  refine (Value.canon8_eq (iblk m c 0 t) (iblk m c 1 t) (iblk m c 2 t) (iblk m c 4 t) (iblk m c 3 t) (iblk m c 5 t)
    (iblk m c 6 t) (iblk m c 7 t) y).trans ?_
  obtain ⟨p, q, rfl⟩ : ∃ (p : Fin 256) (q : Fin 1024), y = ix2 p q := ⟨y 0, y 1, eq_ix2 y⟩
  refine (Point.cell_point (staged m c t) p q).trans ?_
  show cellAt _ _ _ _ _ _ _ _ _ _ _ _ = cellAt _ _ _ _ _ _ _ _ _ _ _ _
  congr 1 <;> apply Fin.ext
  · show 256 * t.val + p.val = win0_8.index t (0 : Fin 2) * 256 + 1 * p.val
    rw [e.«80»]; omega
  · show q.val = win0_8.index t (1 : Fin 2) * 1024 + 1 * q.val
    rw [e.«81»]; omega

/-- An index of the result array is in point t's block iff each coordinate is in the block's range on its axis. -/
theorem mem_blk (t : Fin cfg0.N) (i : S2048x1024.Idx) :
    i ∈ ((cfg0.win 8).blk t).view.set ↔ ∀ a : Fin 2, win0_8.index t a * S256x1024.size a ≤ (i a).val
      ∧ (i a).val < win0_8.index t a * S256x1024.size a + S256x1024.size a := by
  show i ∈ ((View.whole main_v19).slice (win0_8.rect t)).set ↔ _
  rw [View.set_slice_whole, Rect.mem_set_unit]
  exact Iff.rfl

/-- Every index of the result array lies in the block of the point that holds its row: point ⌊row / 256⌋. -/
theorem covered (i : S2048x1024.Idx) :
    ∃ t : Fin cfg0.N, (cfg0.win 8).flush t = true ∧ i ∈ ((cfg0.win 8).blk t).view.set := by
  have hi0 : (i 0).val < 2048 := (i 0).isLt
  have hi1 : (i 1).val < 1024 := (i 1).isLt
  have hN : cfg0.N = 8 := N_0
  let t : Fin cfg0.N := ⟨(i 0).val / 256, by rw [hN]; omega⟩
  have e := idx_facts t
  refine ⟨t, flush0_8 t, ?_⟩
  rw [mem_blk]
  intro a
  match a with
  | ⟨0, _⟩ =>
    show win0_8.index t (0 : Fin 2) * 256 ≤ (i 0).val ∧ (i 0).val < win0_8.index t (0 : Fin 2) * 256 + 256
    rw [e.«80»]
    show (i 0).val / 256 * 256 ≤ (i 0).val ∧ (i 0).val < (i 0).val / 256 * 256 + 256
    omega
  | ⟨1, _⟩ =>
    show win0_8.index t (1 : Fin 2) * 1024 ≤ (i 1).val ∧ (i 1).val < win0_8.index t (1 : Fin 2) * 1024 + 1024
    rw [e.«81»]
    omega

/-- The result array after the run is the cell's new state of the arguments. -/
theorem final (c : Dev nD) : (dats m 0 c).arrAt 8 cfg0.N = cellOf m c :=
  (dats m 0 c).arrAt_eq_of_cover 8 (cellOf m c) (fun t _ => flushed_eq m c t) (fun i => covered i)

/-- The run, read: the result array at the cell's new state, the arguments unchanged. -/
theorem run : θ_run defs (onTc (τ := τ) (main (F := Ideal))) ⟨m, fun _ => 0, ρ⟩ fun r => ∀ c : Dev nD,
      r.2.mem ((c : Thread nD τ).loc main_v19) = cellOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Value.run_blocks m ρ)

end Cert.KernelIdeal.Blocks

end
-- ==== Proof.lean ====
/-
  The Bayesian GRU cell kernel against its reference, on the extended reals.

  The reference computes, for every batch row r and hidden unit c,
      h'(r, c) = u · h(r, c) + (1 − u) · tanh (mean(r, 2H + c) + var(r, 2H + c) · ε_h(c)),
      u = 1 / (1 + exp (−(mean(r, H + c) + var(r, H + c) · ε_u(c)))),
  with mean and var the two matrix products over all 3H gate columns (Proof/Spec.lean). The kernel never forms the first
  H columns: it slices gate columns H … 3H of every weight and bias first, stacks the x-weights on the h-weights, and for
  each block of 256 batch rows multiplies the block [x | h] (and its entrywise square) with the stacked weights in one
  product of inner length 2048. The two agree because a dot product of vectors laid end to end is the sum of the pieces'
  dot products — commutativity and associativity of addition only, so the inputs' finiteness is never used — and because
  the logistic function is 1 / (1 + e^(−a)) at every extended real; a change of float format is the identity there.

  Proof/RefIsCell.lean reads the reference's result array as the cell; Proof/KernelPoint.lean reads one grid point's
  output block as the cell on that point's rows; Proof/KernelHost.lean and Proof/KernelBlocks.lean read what the host
  operations stage and assemble the eight blocks into the whole array. The three frames are the generated runs, and
  the idealization rewrote no operation.
-/
import proofs.«143885_j39084202394377_2_alg».proof.Defs
import proofs.«143885_j39084202394377_2_alg».proof.Proof.Gen.Kernel
import proofs.«143885_j39084202394377_2_alg».proof.Proof.Gen.Kernel.Skeleton
import proofs.«143885_j39084202394377_2_alg».proof.Proof.Gen.Kernel.Launch
import proofs.«143885_j39084202394377_2_alg».proof.Proof.Gen.Kernel.Points
import proofs.«143885_j39084202394377_2_alg».proof.Proof.Gen.Kernel.Frame
import proofs.«143885_j39084202394377_2_alg».proof.Proof.Gen.KernelIdeal
import proofs.«143885_j39084202394377_2_alg».proof.Proof.Gen.KernelIdeal.Skeleton
import proofs.«143885_j39084202394377_2_alg».proof.Proof.Gen.KernelIdeal.Launch
import proofs.«143885_j39084202394377_2_alg».proof.Proof.Gen.KernelIdeal.Points
import proofs.«143885_j39084202394377_2_alg».proof.Proof.Gen.KernelIdeal.Frame
import proofs.«143885_j39084202394377_2_alg».proof.Proof.Gen.ReferenceIdeal
import proofs.«143885_j39084202394377_2_alg».proof.Proof.Gen.Pre_finite_inputs
import proofs.«143885_j39084202394377_2_alg».proof.Proof.Gen.KernelIdeal.Value
import proofs.«143885_j39084202394377_2_alg».proof.Proof.Gen.ReferenceIdeal.Run
import proofs.«143885_j39084202394377_2_alg».proof.Proof.Gen.ReferenceIdeal.Read
import proofs.«143885_j39084202394377_2_alg».proof.Proof.RefIsCell
import proofs.«143885_j39084202394377_2_alg».proof.Proof.KernelBlocks
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The kernel ends with the cell's new state of its arguments in its result array, and so does the reference of
    arguments that agree: one array. -/
theorem algebraic : Cert.algebraic_KernelIdeal_ReferenceIdeal := by
  intro m ρ m' ρ' _ hagree
  refine ⟨fun c => Cert.KernelIdeal.Blocks.cellOf m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v54_eq, Cert.ReferenceIdeal.RefValue.result_eq]
  obtain ⟨h0, h1, h2, h3, h4, h5, h6, h7, -, h9, h10⟩ := hagree c
  rw [h0, h1, h2, h3, h4, h5, h6, h7, h9, h10]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
